-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 76
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128x128, .f32⟩
  | .hbm, ⟨24, _⟩ => ⟨S128x128, .f32⟩
  | .hbm, ⟨25, _⟩ => ⟨S1x128, .f32⟩
  | .hbm, ⟨26, _⟩ => ⟨S128, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S128, .f32⟩
  | .hbm, ⟨75, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S1x128x128, .f32⟩
  | .hbm, ⟨11, _⟩ => ⟨S128x128, .f32⟩
  | .hbm, ⟨12, _⟩ => ⟨S1x128, .f32⟩
  | .hbm, ⟨13, _⟩ => ⟨S128, .f32⟩
  | .hbm, ⟨14, _⟩ => ⟨S1x128x128, .f32⟩
  | .hbm, ⟨15, _⟩ => ⟨S128x128, .f32⟩
  | .hbm, ⟨16, _⟩ => ⟨S1x128, .f32⟩
  | .hbm, ⟨17, _⟩ => ⟨S128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S128, .f32⟩
  | .hbm, ⟨80, _⟩ => ⟨S1x128x128, .f32⟩
  | .hbm, ⟨81, _⟩ => ⟨S128x128, .f32⟩
  | .hbm, ⟨82, _⟩ => ⟨S1x128, .f32⟩
  | .hbm, ⟨83, _⟩ => ⟨S128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_cst : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_1 : Ref sig .tc := ⟨.hbm, 51, rfl⟩
abbrev main_v40 : Ref sig .tc := ⟨.hbm, 52, rfl⟩
abbrev main_v41 : Ref sig .tc := ⟨.hbm, 53, rfl⟩
abbrev main_c_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call1_cst : Ref sig .tc := ⟨.hbm, 69, rfl⟩
abbrev main_call1_v0 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_4 : Ref sig .tc := ⟨.hbm, 84, rfl⟩
abbrev main_v68 : Ref sig .tc := ⟨.hbm, 85, rfl⟩
abbrev main_v69 : Ref sig .tc := ⟨.hbm, 86, rfl⟩
abbrev main_c_5 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_6 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_call2_cst : Ref sig .tc := ⟨.hbm, 102, rfl⟩
abbrev main_call2_v0 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The whole program's run with its result named.

  @main is six segments in a row: a stretch of host operations, a kernel launch, and so on three times. Every
  weakly fair execution runs them in order and terminates; the buffers at each boundary are a fold through the
  segments from the launch memory, and the last boundary's contents are what every final state holds. Read at the
  result's buffer this gives the result array — the third launch's output window after all of its grid points —
  beside the six arguments, unchanged.
-/
import proofs.«130620_j32049045963189_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Whole

end
-- ==== Proof.Layer.lean ====
/-
  One layer of the graph network as a function of arrays, entry by entry.

  A layer takes the node features `x` (50000 nodes, 128 features each), the neighbour sums `agg` of the same
  shape, two 128 × 128 weight matrices and two bias vectors, and returns, at node `r` and output feature `c`,

      (Σ_k max( (Σ_j (x[r,j] + agg[r,j]) · w1[j,k]) + b1[k], 0 ) · w2[k,c]) + b2[c].

  The zero of the rectifier is kept as the float word both programs print; it is never evaluated. Sums are
  finite sums over `Fin 128` on the extended reals: no order, no grouping.
-/
import Idealize.ShloMosaic.PureOps.Ideal
import Idealize.ShloMosaic.Lib.ValueIdx

noncomputable section

open Idealize.ShloMosaic Idealize.ShloMosaic.ValueIdx

namespace Cert.Gin

/-- Node features: 50000 nodes by 128 features. -/
abbrev SNode : Shape := ⟨2, ![50000, 128]⟩
/-- A weight matrix. -/
abbrev SMat : Shape := ⟨2, ![128, 128]⟩
/-- A bias vector. -/
abbrev SVec : Shape := ⟨1, ![128]⟩

/-- The rectified two-layer perceptron of a row `h` of 128 numbers, read at output feature `c`:
    `(Σ_k max((Σ_j h j · w1[j,k]) + b1[k], 0) · w2[k,c]) + b2[c]`. -/
def mlpRow (h : Fin 128 → EReal) (w1 : SMat.Idx → EReal) (b1 : SVec.Idx → EReal) (w2 : SMat.Idx → EReal) (b2 : SVec.Idx → EReal)
    (c : Fin 128) : EReal :=
  (∑ k : Fin 128, max ((∑ j : Fin 128, h j * w1 (ix2 j k)) + b1 (ix1 k)) (Ideal.ofBits .f32 0x00000000#32) * w2 (ix2 k c)) + b2 (ix1 c)

/-- One layer at node `r`, output feature `c`: the perceptron of the row `x[r,·] + agg[r,·]`. -/
def layerAt (x agg : SNode.Idx → EReal) (w1 : SMat.Idx → EReal) (b1 : SVec.Idx → EReal) (w2 : SMat.Idx → EReal) (b2 : SVec.Idx → EReal)
    (r : Fin 50000) (c : Fin 128) : EReal :=
  mlpRow (fun j => x (ix2 r j) + agg (ix2 r j)) w1 b1 w2 b2 c

/-- One layer as a whole array. -/
def layer (x agg : SNode.Idx → EReal) (w1 : SMat.Idx → EReal) (b1 : SVec.Idx → EReal) (w2 : SMat.Idx → EReal) (b2 : SVec.Idx → EReal) :
    SNode.Idx → EReal :=
  fun i => layerAt x agg w1 b1 w2 b2 (i 0) (i 1)

theorem layer_apply (x agg : SNode.Idx → EReal) (w1 : SMat.Idx → EReal) (b1 : SVec.Idx → EReal) (w2 : SMat.Idx → EReal) (b2 : SVec.Idx → EReal)
    (r : Fin 50000) (c : Fin 128) : layer x agg w1 b1 w2 b2 (ix2 r c) = layerAt x agg w1 b1 w2 b2 r c := rfl

end Cert.Gin

end
-- ==== Proof.RLayer.lean ====
/-
  The reference, layer by layer.

  The reference computes each layer on whole arrays: `h = x + agg`, `h · w1` as one [50000,128] × [128,128] product,
  the bias as a row broadcast over all rows, the rectifier against a zero array, a second product and a second bias.
  Read at node `r` and feature `c` the products are plain sums over the contracted axis, the broadcast bias is the
  vector at the column, the zero array is the zero word: the layer's formula. The neighbour sums `agg` — a row
  look-up of `x` at the edges' sources, added into a zero array at the edges' targets — are kept as ONE function of
  the edge list and the features, applied to each layer's input in turn; it is never opened.
-/
import proofs.«130620_j32049045963189_1_alg».proof.Proof.Gen.ReferenceIdeal.Read
import proofs.«130620_j32049045963189_1_alg».proof.Proof.Layer
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.ValueIdx

namespace Cert.ReferenceIdeal.Layers

open Cert.ReferenceIdeal Cert.ReferenceIdeal.Gen Cert.ReferenceIdeal.Read Cert.Gin

/-! ## The whole-array operations read at an entry -/

/-- A [50000,128] × [128,128] product on the host, at `(p, q)`: `Σ_k l[p,k] · r[k,q]`. -/
theorem whole_dot_apply {φ₁ φ₂ : FTy} (l : FVec Ideal S50000x128 φ₁) (r : FVec Ideal S128x128 φ₂) (p : Fin 50000) (q : Fin 128) :
    Host.dotGeneral dot_S50000x128_S128x128_S50000x128_1_0_0_1_n_n none l r (ix2 p q)
      = ∑ k : Fin 128, l (ix2 p k) * r (ix2 k q) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q)
      ((contrEquiv1 dot_S50000x128_S128x128_S50000x128_1_0_0_1_n_n 128 rfl rfl).symm k) = ix2 p k :=
    funext fun a => Fin.ext (by
      match a with
      | ⟨0, _⟩ => exact lhs_main_v23_0 _ _
      | ⟨1, _⟩ => exact (lhs_main_v23_1 _ _).trans hk)
  have er : dot_S50000x128_S128x128_S50000x128_1_0_0_1_n_n.rhsIdx (ix2 p q)
      ((contrEquiv1 dot_S50000x128_S128x128_S50000x128_1_0_0_1_n_n 128 rfl rfl).symm k) = ix2 k q :=
    funext fun a => Fin.ext (by
      match a with
      | ⟨0, _⟩ => exact (rhs_main_v23_0 _ _).trans hk
      | ⟨1, _⟩ => exact rhs_main_v23_1 _ _)
  rw [el, er]

/-- A vector of 128 made one row and broadcast over all 50000 rows reads, at `(p, q)`, the vector at `q`. -/
theorem bias_all_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply _ bcast_S1x128_S50000x128_0_1 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)]),
    broadcastInDim_apply _ bcast_S128_S1x128_1 b (ix2 (0 : Fin 1) q) (ix1 q) (fun a => match a with
      | ⟨0, _⟩ => by show q.val = if (128 : Nat) = 1 then 0 else q.val; rw [if_neg (by decide)])]

/-- The rectifier's zero array at any entry is the zero word. -/
theorem zero_all_apply (i : S50000x128.Idx) :
    broadcastInDim S50000x128 ![] bcast_S_S50000x128 (constant (F := Ideal) S_ .f32 0x00000000#32) i = Ideal.ofBits .f32 0x00000000#32 := by
  rw [broadcastInDim_apply _ bcast_S_S50000x128 _ i ix0 (fun a => a.elim0)]
  rfl

/-! ## One layer, as the reference spells it -/

/-- The reference's operations of one layer, from the layer's input, its neighbour sums, and the layer's weights. -/
def wholeLayer (x agg : FVec Ideal S50000x128 .f32) (w1 : FVec Ideal S128x128 .f32) (b1 : FVec Ideal S128 .f32)
    (w2 : FVec Ideal S128x128 .f32) (b2 : FVec Ideal S128 .f32) : FVec Ideal S50000x128 .f32 :=
  addf (Host.dotGeneral dot_S50000x128_S128x128_S50000x128_1_0_0_1_n_n none
      (maximumf (addf (Host.dotGeneral dot_S50000x128_S128x128_S50000x128_1_0_0_1_n_n none (addf x agg) w1)
          (broadcastInDim S50000x128 ![0, 1] bcast_S1x128_S50000x128_0_1 (broadcastInDim S1x128 ![1] bcast_S128_S1x128_1 b1)))
        (broadcastInDim S50000x128 ![] bcast_S_S50000x128 (constant S_ .f32 0x00000000#32))) w2)
    (broadcastInDim S50000x128 ![0, 1] bcast_S1x128_S50000x128_0_1 (broadcastInDim S1x128 ![1] bcast_S128_S1x128_1 b2))

/-- Entry by entry it is the layer's formula. -/
theorem wholeLayer_eq (x agg : FVec Ideal S50000x128 .f32) (w1 : FVec Ideal S128x128 .f32) (b1 : FVec Ideal S128 .f32)
    (w2 : FVec Ideal S128x128 .f32) (b2 : FVec Ideal S128 .f32) :
    wholeLayer x agg w1 b1 w2 b2 = layer x agg w1 b1 w2 b2 := by
  funext i
  obtain ⟨p, q, rfl⟩ : ∃ (p : Fin 50000) (q : Fin 128), i = ix2 p q := ⟨i 0, i 1, eq_ix2 i⟩
  rw [layer_apply]
  unfold wholeLayer layerAt mlpRow
  rw [addf_apply, whole_dot_apply, bias_all_apply]
  refine congrArg (· + b2 (ix1 q)) (Finset.sum_congr rfl fun k _ => ?_)
  rw [maximumf_apply, addf_apply, whole_dot_apply, bias_all_apply, zero_all_apply]
  refine congrArg (fun s => max (s + b1 (ix1 k)) _ * w2 (ix2 k q)) (Finset.sum_congr rfl fun j _ => ?_)
  rw [addf_apply]

/-! ## The neighbour sums and the three layers -/

/-- The neighbour sums of features `x` along the edge list `e`: rows of `x` looked up at the sources (a negative
    source index wrapped once by the number of nodes, as the look-up spells it) and added into a zero array at the
    targets. One function, the same wherever it is applied. -/
def agg (e : IVec S2x800000 32) (x : FVec Ideal S50000x128 .f32) : FVec Ideal S50000x128 .f32 :=
  Host.scatterAdd (F := Ideal) scatter_S50000x128_S800000x1_S800000x128_1_0_0_1 (val_main_v19 (F := Ideal)) (val_main_v20 (F := Ideal) e)
    (Host.gather gather_S50000x128_S800000x1_S800000x128_1_0_n_n_0_1_1128 x (val_main_v17 (F := Ideal) e))

variable (x0 : (⟨S50000x128, .f32⟩ : BufTy).Contents (Elt Ideal)) (x1 : (⟨S2x800000, .i32⟩ : BufTy).Contents (Elt Ideal))
  (x2 : (⟨S3x128x128, .f32⟩ : BufTy).Contents (Elt Ideal)) (x3 : (⟨S3x128, .f32⟩ : BufTy).Contents (Elt Ideal))
  (x4 : (⟨S3x128x128, .f32⟩ : BufTy).Contents (Elt Ideal)) (x5 : (⟨S3x128, .f32⟩ : BufTy).Contents (Elt Ideal))

/-- After the first layer (weights: slice 0 of each stack). -/
def net1 : SNode.Idx → EReal :=
  layer x0 (agg x1 x0) (val_main_v5 (F := Ideal) x2) (val_main_v7 (F := Ideal) x3) (val_main_v9 (F := Ideal) x4) (val_main_v11 (F := Ideal) x5)
/-- After the second layer (slice 1). -/
def net2 : SNode.Idx → EReal :=
  layer (net1 x0 x1 x2 x3 x4 x5) (agg x1 (net1 x0 x1 x2 x3 x4 x5))
    (val_main_v33 (F := Ideal) x2) (val_main_v35 (F := Ideal) x3) (val_main_v37 (F := Ideal) x4) (val_main_v39 (F := Ideal) x5)
/-- After the third layer (slice 2): the network's result. -/
def net3 : SNode.Idx → EReal :=
  layer (net2 x0 x1 x2 x3 x4 x5) (agg x1 (net2 x0 x1 x2 x3 x4 x5))
    (val_main_v61 (F := Ideal) x2) (val_main_v63 (F := Ideal) x3) (val_main_v65 (F := Ideal) x4) (val_main_v67 (F := Ideal) x5)

/-- The reference's first layer is its own spelling of one layer: the stages unfold to it. -/
theorem ref_whole1 : val_main_v31 (F := Ideal) x0 x1 x2 x3 x4 x5
    = wholeLayer x0 (agg x1 x0) (val_main_v5 (F := Ideal) x2) (val_main_v7 (F := Ideal) x3) (val_main_v9 (F := Ideal) x4) (val_main_v11 (F := Ideal) x5) := by
  unfold val_main_v31 val_main_v30 val_main_v29 val_main_v28 val_main_v27 val_main_call0_v0 val_main_call0_cst val_main_v26 val_main_v25
    val_main_v24 val_main_v23 val_main_v22 val_main_v21 val_main_v18 wholeLayer agg
  rfl

theorem ref_whole2 : val_main_v59 (F := Ideal) x0 x1 x2 x3 x4 x5
    = wholeLayer (val_main_v31 (F := Ideal) x0 x1 x2 x3 x4 x5) (agg x1 (val_main_v31 (F := Ideal) x0 x1 x2 x3 x4 x5))
        (val_main_v33 (F := Ideal) x2) (val_main_v35 (F := Ideal) x3) (val_main_v37 (F := Ideal) x4) (val_main_v39 (F := Ideal) x5) := by
  unfold val_main_v59 val_main_v58 val_main_v57 val_main_v56 val_main_v55 val_main_call1_v0 val_main_call1_cst val_main_v54 val_main_v53
    val_main_v52 val_main_v51 val_main_v50 val_main_v49 val_main_v48 val_main_v47 val_main_cst_3 val_main_v46 val_main_v45 val_main_v44
    val_main_v43 val_main_v42 val_main_c_2 val_main_v41 val_main_v40 val_main_c_1 wholeLayer agg
    val_main_v20 val_main_v19 val_main_cst val_main_v17 val_main_v16 val_main_v15 val_main_v14 val_main_c_0 val_main_v13 val_main_v12 val_main_c
  rfl

theorem ref_whole3 : val_main_v87 (F := Ideal) x0 x1 x2 x3 x4 x5
    = wholeLayer (val_main_v59 (F := Ideal) x0 x1 x2 x3 x4 x5) (agg x1 (val_main_v59 (F := Ideal) x0 x1 x2 x3 x4 x5))
        (val_main_v61 (F := Ideal) x2) (val_main_v63 (F := Ideal) x3) (val_main_v65 (F := Ideal) x4) (val_main_v67 (F := Ideal) x5) := by
  unfold val_main_v87 val_main_v86 val_main_v85 val_main_v84 val_main_v83 val_main_call2_v0 val_main_call2_cst val_main_v82 val_main_v81
    val_main_v80 val_main_v79 val_main_v78 val_main_v77 val_main_v76 val_main_v75 val_main_cst_6 val_main_v74 val_main_v73 val_main_v72
    val_main_v71 val_main_v70 val_main_c_5 val_main_v69 val_main_v68 val_main_c_4 wholeLayer agg
    val_main_v20 val_main_v19 val_main_cst val_main_v17 val_main_v16 val_main_v15 val_main_v14 val_main_c_0 val_main_v13 val_main_v12 val_main_c
  rfl

theorem ref_net1 : val_main_v31 (F := Ideal) x0 x1 x2 x3 x4 x5 = net1 x0 x1 x2 x3 x4 x5 :=
  (ref_whole1 x0 x1 x2 x3 x4 x5).trans (wholeLayer_eq _ _ _ _ _ _)

theorem ref_net2 : val_main_v59 (F := Ideal) x0 x1 x2 x3 x4 x5 = net2 x0 x1 x2 x3 x4 x5 := by
  rw [ref_whole2, wholeLayer_eq, ref_net1]
  rfl

theorem ref_net3 : val_main_v87 (F := Ideal) x0 x1 x2 x3 x4 x5 = net3 x0 x1 x2 x3 x4 x5 := by
  rw [ref_whole3, wholeLayer_eq, ref_net2]
  rfl

end Cert.ReferenceIdeal.Layers

end
-- ==== Proof.KBody.lean ====
/-
  What one grid point of the kernel computes, entry by entry.

  The body loads a block `x0` of 2000 node rows, the matching block `x1` of neighbour sums, two weight matrices
  and two bias vectors, and stores `(relu((x0 + x1) · w1 + b1)) · w2 + b2`. At the ideal values the changes of
  float format are the identity, each matrix product into a zero accumulator is the plain sum over the contracted
  axis, and a bias vector cast to one row and broadcast over the rows reads, at `(p, q)`, the vector at `q`.
  So the stored block at row `p`, column `q` is the perceptron of the row `x0[p,·] + x1[p,·]` at `q`.
-/
import proofs.«130620_j32049045963189_1_alg».proof.Proof.Gen.KernelIdeal.Skeleton
import proofs.«130620_j32049045963189_1_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Body

open Cert.KernelIdeal Cert.KernelIdeal.Gen Cert.Gin

/-! ## The block's matrix product read at an entry -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A [2000,128] × [128,128] product into the zero accumulator, at `(p, q)`: `Σ_k l[p,k] · r[k,q]`. -/
theorem tile_dot_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-! ## A bias vector as one row over all rows -/

/-- A vector of 128 cast to one row and broadcast over 2000 rows reads, at `(p, q)`, the vector at `q`. -/
theorem bias_apply (b : FVec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-! ## The stored block at an entry

The three launches run the same body, printed three times. -/

/-- Row `p`, column `q` of the block a grid point of launch 0 stores: the perceptron of `x0[p,·] + x1[p,·]`. -/
theorem pay0_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k0_pay1 (F := Ideal) x0 x1 x2 x3 x4 x5 (ix2 p q)
      = mlpRow (fun j => x0 (ix2 p j) + x1 (ix2 p j)) x2 x3 x4 x5 q := by
  unfold k0_pay1 mlpRow
  simp only [shapeCast_self]
  rw [addf_apply, tile_dot_apply, bias_apply]
  refine congrArg (· + x5 (ix1 q)) (Finset.sum_congr rfl fun k _ => ?_)
  rw [truncf_apply, maximumf_apply, addf_apply, tile_dot_apply, bias_apply, truncf_apply]
  refine congrArg (fun s => max (s + x3 (ix1 k)) _ * x4 (ix2 k q)) (Finset.sum_congr rfl fun j _ => ?_)
  rw [truncf_apply, truncf_apply, addf_apply]

/-- Row `p`, column `q` of the block a grid point of launch 1 stores: the perceptron of `x0[p,·] + x1[p,·]`. -/
theorem pay1_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k1_pay1 (F := Ideal) x0 x1 x2 x3 x4 x5 (ix2 p q)
      = mlpRow (fun j => x0 (ix2 p j) + x1 (ix2 p j)) x2 x3 x4 x5 q := by
  unfold k1_pay1 mlpRow
  simp only [shapeCast_self]
  rw [addf_apply, tile_dot_apply, bias_apply]
  refine congrArg (· + x5 (ix1 q)) (Finset.sum_congr rfl fun k _ => ?_)
  rw [truncf_apply, maximumf_apply, addf_apply, tile_dot_apply, bias_apply, truncf_apply]
  refine congrArg (fun s => max (s + x3 (ix1 k)) _ * x4 (ix2 k q)) (Finset.sum_congr rfl fun j _ => ?_)
  rw [truncf_apply, truncf_apply, addf_apply]

/-- Row `p`, column `q` of the block a grid point of launch 2 stores: the perceptron of `x0[p,·] + x1[p,·]`. -/
theorem pay2_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k2_pay1 (F := Ideal) x0 x1 x2 x3 x4 x5 (ix2 p q)
      = mlpRow (fun j => x0 (ix2 p j) + x1 (ix2 p j)) x2 x3 x4 x5 q := by
  unfold k2_pay1 mlpRow
  simp only [shapeCast_self]
  rw [addf_apply, tile_dot_apply, bias_apply]
  refine congrArg (· + x5 (ix1 q)) (Finset.sum_congr rfl fun k _ => ?_)
  rw [truncf_apply, maximumf_apply, addf_apply, tile_dot_apply, bias_apply, truncf_apply]
  refine congrArg (fun s => max (s + x3 (ix1 k)) _ * x4 (ix2 k q)) (Finset.sum_congr rfl fun j _ => ?_)
  rw [truncf_apply, truncf_apply, addf_apply]

end Cert.KernelIdeal.Body

end
-- ==== Proof.KLaunch0.lean ====
/-
  Launch 0 of the kernel as a whole-array function.

  The launch walks 25 grid points; point `t` loads rows `2000·t … 2000·t + 1999` of the node features and of the
  neighbour sums, the two whole weight matrices and the two whole bias vectors, and writes back rows
  `2000·t … 2000·t + 1999` of the output. Each written entry is the layer's formula at that row (the body's
  block at an entry, read through the blocks' row offsets), and the 25 row blocks tile the 50000 rows, so after the
  launch the output array is one layer of the arrays the launch found, whatever those are.
-/
import proofs.«130620_j32049045963189_1_alg».proof.Proof.Gen.KernelIdeal.Frame
import proofs.«130620_j32049045963189_1_alg».proof.Proof.KBody
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch0

open Cert.KernelIdeal Cert.KernelIdeal.Gen Cert.KernelIdeal.Body Cert.Gin

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs and the output sit at block row `t`, block
    column 0; the weights and biases at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The body's block at an entry, for blocks that are the stated rows of whole arrays: the layer at row
    `2000·t + p`. -/
theorem block_entry (A0 A1 : SNode.Idx → EReal) (A2 : SMat.Idx → EReal) (A3 : SVec.Idx → EReal) (A4 : SMat.Idx → EReal) (A5 : SVec.Idx → EReal)
    (x0 x1 : Vec Ideal S2000x128 .f32) (x2 : Vec Ideal S128x128 .f32) (x3 : Vec Ideal S128 .f32)
    (x4 : Vec Ideal S128x128 .f32) (x5 : Vec Ideal S128 .f32) (r : Fin 50000) (p : Fin 2000) (q : Fin 128)
    (h0 : ∀ j : Fin 128, x0 (ix2 p j) = A0 (ix2 r j)) (h1 : ∀ j : Fin 128, x1 (ix2 p j) = A1 (ix2 r j))
    (h2 : x2 = A2) (h3 : x3 = A3) (h4 : x4 = A4) (h5 : x5 = A5) :
    k0_pay1 (F := Ideal) x0 x1 x2 x3 x4 x5 (ix2 p q) = layer A0 A1 A2 A3 A4 A5 (ix2 r q) := by
  rw [pay0_apply, layer_apply, h2, h3, h4, h5]
  unfold layerAt
  exact congrArg (fun h => mlpRow h A2 A3 A4 A5 q) (funext fun j => by rw [h0, h1])

/-- WHAT POINT `t` WRITES BACK is block `t` of the layer of the arrays as the launch finds them. -/
theorem flushed_eq (c : Dev nD) (t : Fin cfg0.N) :
    (dat0 V c).flushed 6 t = ((cfg0.win 6).blk t).view.read (Elt Ideal)
      (layer (V c main_arg0) (V c main_v13) (V c main_v15) (V c main_v17) (V c main_v19) (V c main_v21)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S128) hz1]
  obtain ⟨e00, e01, e10, e11, e20, e21, e30, e40, e41, e50, e60, e61⟩ := idx_facts t
  have ht : t.val < 25 := by have h := t.isLt; have hN : cfg0.N = 25 := N_0; omega
  funext y
  have hy0 : (y 0).val < 2000 := (y 0).isLt
  have hy1 : (y 1).val < 128 := (y 1).isLt
  rw [View.read_apply]
  have hemb : ((cfg0.win 6).blk t).view.emb y = ix2 (⟨t.val * 2000 + (y 0).val, by omega⟩ : Fin 50000) (⟨(y 1).val, hy1⟩ : Fin 128) := by
    funext a; apply Fin.ext
    match a with
    | ⟨0, _⟩ => show win0_6.index t (0 : Fin 2) * 2000 + 1 * (y 0).val = t.val * 2000 + (y 0).val; rw [e60]; omega
    | ⟨1, _⟩ => show win0_6.index t (1 : Fin 2) * 128 + 1 * (y 1).val = (y 1).val; rw [e61]; omega
  rw [hemb]
  refine (congrArg _ (eq_ix2 y)).trans (block_entry (V c main_arg0) (V c main_v13) (V c main_v15) (V c main_v17) (V c main_v19) (V c main_v21)
    (iblk0 V c 0 t) (iblk0 V c 1 t) (iblk0 V c 2 t) (iblk0 V c 3 t) (iblk0 V c 4 t) (iblk0 V c 5 t)
    ⟨t.val * 2000 + (y 0).val, by omega⟩ ⟨(y 0).val, hy0⟩ ⟨(y 1).val, hy1⟩ ?_ ?_ ?_ ?_ ?_ ?_)
  · intro j
    show V c main_arg0 (((cfg0.win 0).blk t).view.emb _) = V c main_arg0 _
    refine congrArg _ (funext fun a => Fin.ext ?_)
    match a with
    | ⟨0, _⟩ => show win0_0.index t (0 : Fin 2) * 2000 + 1 * (y 0).val = t.val * 2000 + (y 0).val; rw [e00]; omega
    | ⟨1, _⟩ => show win0_0.index t (1 : Fin 2) * 128 + 1 * j.val = j.val; rw [e01]; omega
  · intro j
    show V c main_v13 (((cfg0.win 1).blk t).view.emb _) = V c main_v13 _
    refine congrArg _ (funext fun a => Fin.ext ?_)
    match a with
    | ⟨0, _⟩ => show win0_1.index t (0 : Fin 2) * 2000 + 1 * (y 0).val = t.val * 2000 + (y 0).val; rw [e10]; omega
    | ⟨1, _⟩ => show win0_1.index t (1 : Fin 2) * 128 + 1 * j.val = j.val; rw [e11]; omega
  · funext z
    show V c main_v15 (((cfg0.win 2).blk t).view.emb z) = V c main_v15 z
    refine congrArg _ (funext fun a => Fin.ext ?_)
    match a with
    | ⟨0, _⟩ => show win0_2.index t (0 : Fin 2) * 128 + 1 * (z 0).val = (z 0).val; rw [e20]; omega
    | ⟨1, _⟩ => show win0_2.index t (1 : Fin 2) * 128 + 1 * (z 1).val = (z 1).val; rw [e21]; omega
  · funext z
    show V c main_v17 (((cfg0.win 3).blk t).view.emb z) = V c main_v17 z
    refine congrArg _ (funext fun a => Fin.ext ?_)
    match a with
    | ⟨0, _⟩ => show win0_3.index t (0 : Fin 1) * 128 + 1 * (z 0).val = (z 0).val; rw [e30]; omega
  · funext z
    show V c main_v19 (((cfg0.win 4).blk t).view.emb z) = V c main_v19 z
    refine congrArg _ (funext fun a => Fin.ext ?_)
    match a with
    | ⟨0, _⟩ => show win0_4.index t (0 : Fin 2) * 128 + 1 * (z 0).val = (z 0).val; rw [e40]; omega
    | ⟨1, _⟩ => show win0_4.index t (1 : Fin 2) * 128 + 1 * (z 1).val = (z 1).val; rw [e41]; omega
  · funext z
    show V c main_v21 (((cfg0.win 5).blk t).view.emb z) = V c main_v21 z
    refine congrArg _ (funext fun a => Fin.ext ?_)
    match a with
    | ⟨0, _⟩ => show win0_5.index t (0 : Fin 1) * 128 + 1 * (z 0).val = (z 0).val; rw [e50]; omega

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22).slice (win0_6.rect t)).set ↔ _
  rw [View.set_slice_whole, Rect.mem_set_unit]
  exact Iff.rfl

/-- Every index of the output array is in the block of the point its row falls in: row `r` in block `r / 2000`. -/
theorem covered (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, -, -, -, -, e60, e61⟩ := idx_facts t
  have e60' : win0_6.index t (0 : Fin 2) = (i 0).val / 2000 := e60
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e60']; omega
  | ⟨1, _⟩ => show win0_6.index t (1 : Fin 2) * 128 ≤ (i 1).val ∧ (i 1).val < win0_6.index t (1 : Fin 2) * 128 + 128; rw [e61]; omega

/-- THE OUTPUT ARRAY after the launch: one layer of the arrays the launch found. -/
theorem final (c : Dev nD) : (dat0 V c).arrAt 6 cfg0.N
    = layer (V c main_arg0) (V c main_v13) (V c main_v15) (V c main_v17) (V c main_v19) (V c main_v21) :=
  (dat0 V c).arrAt_eq_of_cover 6 _ (fun t _ => flushed_eq V c t) covered

end Cert.KernelIdeal.Launch0

end
-- ==== Proof.KHost1.lean ====
/-
  The kernel's host side, first stretch and first launch.

  Before the first launch @main cuts the edge list into its two rows (sources, targets), forms the neighbour sums of
  the argument features, and takes slice 0 of each weight stack. The launch then finds the features, their neighbour
  sums and the first layer's weights, and leaves the first layer in its output. The edge rows and the weight stacks
  are operands of no launch's output window, so the launch leaves them as it found them.
-/
import proofs.«130620_j32049045963189_1_alg».proof.Proof.Gen.KernelIdeal.Frame
import proofs.«130620_j32049045963189_1_alg».proof.Proof.RLayer
import proofs.«130620_j32049045963189_1_alg».proof.Proof.KLaunch0
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen Cert.Gin
open Cert.ReferenceIdeal.Read Cert.ReferenceIdeal.Layers

variable (m : (ℓ : Loc nD τ sig) → Buf (Elt Ideal) ℓ) (ρ : Dev nD → PrngReg)

/-! ## Before the first launch -/

theorem w1_v1 (c : Dev nD) : (W1 m ρ c (Proc.devRef .tc main_v1) : S800000.Idx → BitVec 32) = val_main_v1 (F := Ideal) (m ((c : Thread nD τ).loc main_arg1)) := by
  show StableHlo.after hostOps0 (W0 m ρ c) (Proc.devRef .tc main_v1) = _
  after_results
  rfl
theorem w1_v3 (c : Dev nD) : (W1 m ρ c (Proc.devRef .tc main_v3) : S800000.Idx → BitVec 32) = val_main_v3 (F := Ideal) (m ((c : Thread nD τ).loc main_arg1)) := by
  show StableHlo.after hostOps0 (W0 m ρ c) (Proc.devRef .tc main_v3) = _
  after_results
  rfl
theorem w1_arg0 (c : Dev nD) : (W1 m ρ c (Proc.devRef .tc main_arg0)) = (m ((c : Thread nD τ).loc main_arg0)) := by
  show StableHlo.after hostOps0 (W0 m ρ c) (Proc.devRef .tc main_arg0) = _
  after_results
theorem w1_arg2 (c : Dev nD) : (W1 m ρ c (Proc.devRef .tc main_arg2)) = (m ((c : Thread nD τ).loc main_arg2)) := by
  show StableHlo.after hostOps0 (W0 m ρ c) (Proc.devRef .tc main_arg2) = _
  after_results
theorem w1_arg3 (c : Dev nD) : (W1 m ρ c (Proc.devRef .tc main_arg3)) = (m ((c : Thread nD τ).loc main_arg3)) := by
  show StableHlo.after hostOps0 (W0 m ρ c) (Proc.devRef .tc main_arg3) = _
  after_results
theorem w1_arg4 (c : Dev nD) : (W1 m ρ c (Proc.devRef .tc main_arg4)) = (m ((c : Thread nD τ).loc main_arg4)) := by
  show StableHlo.after hostOps0 (W0 m ρ c) (Proc.devRef .tc main_arg4) = _
  after_results
theorem w1_arg5 (c : Dev nD) : (W1 m ρ c (Proc.devRef .tc main_arg5)) = (m ((c : Thread nD τ).loc main_arg5)) := by
  show StableHlo.after hostOps0 (W0 m ρ c) (Proc.devRef .tc main_arg5) = _
  after_results
theorem w1_v13 (c : Dev nD) : (W1 m ρ c (Proc.devRef .tc main_v13) : S50000x128.Idx → EReal) = agg (m ((c : Thread nD τ).loc main_arg1)) (m ((c : Thread nD τ).loc main_arg0)) := by
  show StableHlo.after hostOps0 (W0 m ρ c) (Proc.devRef .tc main_v13) = _
  after_results
  rfl
theorem w1_v15 (c : Dev nD) : (W1 m ρ c (Proc.devRef .tc main_v15) : S128x128.Idx → EReal) = val_main_v5 (F := Ideal) (m ((c : Thread nD τ).loc main_arg2)) := by
  show StableHlo.after hostOps0 (W0 m ρ c) (Proc.devRef .tc main_v15) = _
  after_results
  rfl
theorem w1_v17 (c : Dev nD) : (W1 m ρ c (Proc.devRef .tc main_v17) : S128.Idx → EReal) = val_main_v7 (F := Ideal) (m ((c : Thread nD τ).loc main_arg3)) := by
  show StableHlo.after hostOps0 (W0 m ρ c) (Proc.devRef .tc main_v17) = _
  after_results
  rfl
theorem w1_v19 (c : Dev nD) : (W1 m ρ c (Proc.devRef .tc main_v19) : S128x128.Idx → EReal) = val_main_v9 (F := Ideal) (m ((c : Thread nD τ).loc main_arg4)) := by
  show StableHlo.after hostOps0 (W0 m ρ c) (Proc.devRef .tc main_v19) = _
  after_results
  rfl
theorem w1_v21 (c : Dev nD) : (W1 m ρ c (Proc.devRef .tc main_v21) : S128.Idx → EReal) = val_main_v11 (F := Ideal) (m ((c : Thread nD τ).loc main_arg5)) := by
  show StableHlo.after hostOps0 (W0 m ρ c) (Proc.devRef .tc main_v21) = _
  after_results
  rfl

/-! ## The first launch: its output is the first layer; the edge rows and the weight stacks are untouched -/

theorem w2_v22 (c : Dev nD) : (W2 m ρ c (Proc.devRef .tc main_v22) : S50000x128.Idx → EReal) = net1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((Launch0.final (V1 m ρ) c).trans ?_)
  show layer (W1 m ρ c (Proc.devRef .tc main_arg0)) (W1 m ρ c (Proc.devRef .tc main_v13)) (W1 m ρ c (Proc.devRef .tc main_v15))
    (W1 m ρ c (Proc.devRef .tc main_v17)) (W1 m ρ c (Proc.devRef .tc main_v19)) (W1 m ρ c (Proc.devRef .tc main_v21)) = _
  rw [w1_arg0, w1_v13, w1_v15, w1_v17, w1_v19, w1_v21]
  rfl
theorem w2_v1 (c : Dev nD) : (W2 m ρ c (Proc.devRef .tc main_v1) : S800000.Idx → BitVec 32) = val_main_v1 (F := Ideal) (m ((c : Thread nD τ).loc main_arg1)) :=
  (W2_of_ne m ρ c main_v1 (by decide)).trans (w1_v1 m ρ c)
theorem w2_v3 (c : Dev nD) : (W2 m ρ c (Proc.devRef .tc main_v3) : S800000.Idx → BitVec 32) = val_main_v3 (F := Ideal) (m ((c : Thread nD τ).loc main_arg1)) :=
  (W2_of_ne m ρ c main_v3 (by decide)).trans (w1_v3 m ρ c)
theorem w2_arg2 (c : Dev nD) : W2 m ρ c (Proc.devRef .tc main_arg2) = (m ((c : Thread nD τ).loc main_arg2)) :=
  (W2_of_ne m ρ c main_arg2 (by decide)).trans (w1_arg2 m ρ c)
theorem w2_arg3 (c : Dev nD) : W2 m ρ c (Proc.devRef .tc main_arg3) = (m ((c : Thread nD τ).loc main_arg3)) :=
  (W2_of_ne m ρ c main_arg3 (by decide)).trans (w1_arg3 m ρ c)
theorem w2_arg4 (c : Dev nD) : W2 m ρ c (Proc.devRef .tc main_arg4) = (m ((c : Thread nD τ).loc main_arg4)) :=
  (W2_of_ne m ρ c main_arg4 (by decide)).trans (w1_arg4 m ρ c)
theorem w2_arg5 (c : Dev nD) : W2 m ρ c (Proc.devRef .tc main_arg5) = (m ((c : Thread nD τ).loc main_arg5)) :=
  (W2_of_ne m ρ c main_arg5 (by decide)).trans (w1_arg5 m ρ c)

end Cert.KernelIdeal.Host

end
-- ==== Proof.KLaunch1.lean ====
/-
  Launch 1 of the kernel as a whole-array function.

  The launch walks 25 grid points; point `t` loads rows `2000·t … 2000·t + 1999` of the node features and of the
  neighbour sums, the two whole weight matrices and the two whole bias vectors, and writes back rows
  `2000·t … 2000·t + 1999` of the output. Each written entry is the layer's formula at that row (the body's
  block at an entry, read through the blocks' row offsets), and the 25 row blocks tile the 50000 rows, so after the
  launch the output array is one layer of the arrays the launch found, whatever those are.
-/
import proofs.«130620_j32049045963189_1_alg».proof.Proof.Gen.KernelIdeal.Frame
import proofs.«130620_j32049045963189_1_alg».proof.Proof.KBody
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch1

open Cert.KernelIdeal Cert.KernelIdeal.Gen Cert.KernelIdeal.Body Cert.Gin

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs and the output sit at block row `t`, block
    column 0; the weights and biases at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The body's block at an entry, for blocks that are the stated rows of whole arrays: the layer at row
    `2000·t + p`. -/
theorem block_entry (A0 A1 : SNode.Idx → EReal) (A2 : SMat.Idx → EReal) (A3 : SVec.Idx → EReal) (A4 : SMat.Idx → EReal) (A5 : SVec.Idx → EReal)
    (x0 x1 : Vec Ideal S2000x128 .f32) (x2 : Vec Ideal S128x128 .f32) (x3 : Vec Ideal S128 .f32)
    (x4 : Vec Ideal S128x128 .f32) (x5 : Vec Ideal S128 .f32) (r : Fin 50000) (p : Fin 2000) (q : Fin 128)
    (h0 : ∀ j : Fin 128, x0 (ix2 p j) = A0 (ix2 r j)) (h1 : ∀ j : Fin 128, x1 (ix2 p j) = A1 (ix2 r j))
    (h2 : x2 = A2) (h3 : x3 = A3) (h4 : x4 = A4) (h5 : x5 = A5) :
    k1_pay1 (F := Ideal) x0 x1 x2 x3 x4 x5 (ix2 p q) = layer A0 A1 A2 A3 A4 A5 (ix2 r q) := by
  rw [pay1_apply, layer_apply, h2, h3, h4, h5]
  unfold layerAt
  exact congrArg (fun h => mlpRow h A2 A3 A4 A5 q) (funext fun j => by rw [h0, h1])

/-- WHAT POINT `t` WRITES BACK is block `t` of the layer of the arrays as the launch finds them. -/
theorem flushed_eq (c : Dev nD) (t : Fin cfg1.N) :
    (dat1 V c).flushed 6 t = ((cfg1.win 6).blk t).view.read (Elt Ideal)
      (layer (V c main_v22) (V c main_v32) (V c main_v34) (V c main_v36) (V c main_v38) (V c main_v40)) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S128) hz1]
  obtain ⟨e00, e01, e10, e11, e20, e21, e30, e40, e41, e50, e60, e61⟩ := idx_facts t
  have ht : t.val < 25 := by have h := t.isLt; have hN : cfg1.N = 25 := N_1; omega
  funext y
  have hy0 : (y 0).val < 2000 := (y 0).isLt
  have hy1 : (y 1).val < 128 := (y 1).isLt
  rw [View.read_apply]
  have hemb : ((cfg1.win 6).blk t).view.emb y = ix2 (⟨t.val * 2000 + (y 0).val, by omega⟩ : Fin 50000) (⟨(y 1).val, hy1⟩ : Fin 128) := by
    funext a; apply Fin.ext
    match a with
    | ⟨0, _⟩ => show win1_6.index t (0 : Fin 2) * 2000 + 1 * (y 0).val = t.val * 2000 + (y 0).val; rw [e60]; omega
    | ⟨1, _⟩ => show win1_6.index t (1 : Fin 2) * 128 + 1 * (y 1).val = (y 1).val; rw [e61]; omega
  rw [hemb]
  refine (congrArg _ (eq_ix2 y)).trans (block_entry (V c main_v22) (V c main_v32) (V c main_v34) (V c main_v36) (V c main_v38) (V c main_v40)
    (iblk1 V c 0 t) (iblk1 V c 1 t) (iblk1 V c 2 t) (iblk1 V c 3 t) (iblk1 V c 4 t) (iblk1 V c 5 t)
    ⟨t.val * 2000 + (y 0).val, by omega⟩ ⟨(y 0).val, hy0⟩ ⟨(y 1).val, hy1⟩ ?_ ?_ ?_ ?_ ?_ ?_)
  · intro j
    show V c main_v22 (((cfg1.win 0).blk t).view.emb _) = V c main_v22 _
    refine congrArg _ (funext fun a => Fin.ext ?_)
    match a with
    | ⟨0, _⟩ => show win1_0.index t (0 : Fin 2) * 2000 + 1 * (y 0).val = t.val * 2000 + (y 0).val; rw [e00]; omega
    | ⟨1, _⟩ => show win1_0.index t (1 : Fin 2) * 128 + 1 * j.val = j.val; rw [e01]; omega
  · intro j
    show V c main_v32 (((cfg1.win 1).blk t).view.emb _) = V c main_v32 _
    refine congrArg _ (funext fun a => Fin.ext ?_)
    match a with
    | ⟨0, _⟩ => show win1_1.index t (0 : Fin 2) * 2000 + 1 * (y 0).val = t.val * 2000 + (y 0).val; rw [e10]; omega
    | ⟨1, _⟩ => show win1_1.index t (1 : Fin 2) * 128 + 1 * j.val = j.val; rw [e11]; omega
  · funext z
    show V c main_v34 (((cfg1.win 2).blk t).view.emb z) = V c main_v34 z
    refine congrArg _ (funext fun a => Fin.ext ?_)
    match a with
    | ⟨0, _⟩ => show win1_2.index t (0 : Fin 2) * 128 + 1 * (z 0).val = (z 0).val; rw [e20]; omega
    | ⟨1, _⟩ => show win1_2.index t (1 : Fin 2) * 128 + 1 * (z 1).val = (z 1).val; rw [e21]; omega
  · funext z
    show V c main_v36 (((cfg1.win 3).blk t).view.emb z) = V c main_v36 z
    refine congrArg _ (funext fun a => Fin.ext ?_)
    match a with
    | ⟨0, _⟩ => show win1_3.index t (0 : Fin 1) * 128 + 1 * (z 0).val = (z 0).val; rw [e30]; omega
  · funext z
    show V c main_v38 (((cfg1.win 4).blk t).view.emb z) = V c main_v38 z
    refine congrArg _ (funext fun a => Fin.ext ?_)
    match a with
    | ⟨0, _⟩ => show win1_4.index t (0 : Fin 2) * 128 + 1 * (z 0).val = (z 0).val; rw [e40]; omega
    | ⟨1, _⟩ => show win1_4.index t (1 : Fin 2) * 128 + 1 * (z 1).val = (z 1).val; rw [e41]; omega
  · funext z
    show V c main_v40 (((cfg1.win 5).blk t).view.emb z) = V c main_v40 z
    refine congrArg _ (funext fun a => Fin.ext ?_)
    match a with
    | ⟨0, _⟩ => show win1_5.index t (0 : Fin 1) * 128 + 1 * (z 0).val = (z 0).val; rw [e50]; omega

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v41).slice (win1_6.rect t)).set ↔ _
  rw [View.set_slice_whole, Rect.mem_set_unit]
  exact Iff.rfl

/-- Every index of the output array is in the block of the point its row falls in: row `r` in block `r / 2000`. -/
theorem covered (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, -, e60, e61⟩ := idx_facts t
  have e60' : win1_6.index t (0 : Fin 2) = (i 0).val / 2000 := e60
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; rw [e60']; omega
  | ⟨1, _⟩ => show win1_6.index t (1 : Fin 2) * 128 ≤ (i 1).val ∧ (i 1).val < win1_6.index t (1 : Fin 2) * 128 + 128; rw [e61]; omega

/-- THE OUTPUT ARRAY after the launch: one layer of the arrays the launch found. -/
theorem final (c : Dev nD) : (dat1 V c).arrAt 6 cfg1.N
    = layer (V c main_v22) (V c main_v32) (V c main_v34) (V c main_v36) (V c main_v38) (V c main_v40) :=
  (dat1 V c).arrAt_eq_of_cover 6 _ (fun t _ => flushed_eq V c t) covered

end Cert.KernelIdeal.Launch1

end
-- ==== Proof.KHost2.lean ====
/-
  The kernel's host side, second stretch and second launch.

  The second stretch reads the first launch's output as the current features: it forms their neighbour sums with the
  same edge rows and takes slice 1 of each weight stack. The launch leaves the second layer in its output; the edge
  rows and the weight stacks are again untouched.
-/
import proofs.«130620_j32049045963189_1_alg».proof.Proof.KHost1
import proofs.«130620_j32049045963189_1_alg».proof.Proof.KLaunch1
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen Cert.Gin
open Cert.ReferenceIdeal.Read Cert.ReferenceIdeal.Layers

variable (m : (ℓ : Loc nD τ sig) → Buf (Elt Ideal) ℓ) (ρ : Dev nD → PrngReg)

/-! ## Before the second launch -/

theorem w3_v1 (c : Dev nD) : (W3 m ρ c (Proc.devRef .tc main_v1) : S800000.Idx → BitVec 32) = val_main_v1 (F := Ideal) (m ((c : Thread nD τ).loc main_arg1)) := by
  show StableHlo.after hostOps1 (W2 m ρ c) (Proc.devRef .tc main_v1) = _
  after_results
  exact w2_v1 m ρ c
theorem w3_v3 (c : Dev nD) : (W3 m ρ c (Proc.devRef .tc main_v3) : S800000.Idx → BitVec 32) = val_main_v3 (F := Ideal) (m ((c : Thread nD τ).loc main_arg1)) := by
  show StableHlo.after hostOps1 (W2 m ρ c) (Proc.devRef .tc main_v3) = _
  after_results
  exact w2_v3 m ρ c
theorem w3_arg2 (c : Dev nD) : (W3 m ρ c (Proc.devRef .tc main_arg2)) = (m ((c : Thread nD τ).loc main_arg2)) := by
  show StableHlo.after hostOps1 (W2 m ρ c) (Proc.devRef .tc main_arg2) = _
  after_results
  exact w2_arg2 m ρ c
theorem w3_arg3 (c : Dev nD) : (W3 m ρ c (Proc.devRef .tc main_arg3)) = (m ((c : Thread nD τ).loc main_arg3)) := by
  show StableHlo.after hostOps1 (W2 m ρ c) (Proc.devRef .tc main_arg3) = _
  after_results
  exact w2_arg3 m ρ c
theorem w3_arg4 (c : Dev nD) : (W3 m ρ c (Proc.devRef .tc main_arg4)) = (m ((c : Thread nD τ).loc main_arg4)) := by
  show StableHlo.after hostOps1 (W2 m ρ c) (Proc.devRef .tc main_arg4) = _
  after_results
  exact w2_arg4 m ρ c
theorem w3_arg5 (c : Dev nD) : (W3 m ρ c (Proc.devRef .tc main_arg5)) = (m ((c : Thread nD τ).loc main_arg5)) := by
  show StableHlo.after hostOps1 (W2 m ρ c) (Proc.devRef .tc main_arg5) = _
  after_results
  exact w2_arg5 m ρ c
theorem w3_v22 (c : Dev nD) : (W3 m ρ c (Proc.devRef .tc main_v22) : S50000x128.Idx → EReal) = net1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v22) = _
  after_results
  exact w2_v22 m ρ c
set_option maxHeartbeats 2000000 in
theorem w3_v32 (c : Dev nD) : (W3 m ρ c (Proc.devRef .tc main_v32) : S50000x128.Idx → EReal) = agg (m ((c : Thread nD τ).loc main_arg1)) (net1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h22 := w2_v22 m ρ c
  have h1 := w2_v1 m ρ c
  have h3 := w2_v3 m ρ c
  show StableHlo.after hostOps1 (W2 m ρ c) (Proc.devRef .tc main_v32) = _
  generalize W2 m ρ c = Wv at h22 h1 h3 ⊢
  generalize net1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = N1 at h22 ⊢
  after_results
  rw [h22, h1, h3]
  rfl
theorem w3_v34 (c : Dev nD) : (W3 m ρ c (Proc.devRef .tc main_v34) : S128x128.Idx → EReal) = val_main_v33 (F := Ideal) (m ((c : Thread nD τ).loc main_arg2)) := by
  show StableHlo.after hostOps1 (W2 m ρ c) (Proc.devRef .tc main_v34) = _
  after_results
  rw [w2_arg2]
  rfl
theorem w3_v36 (c : Dev nD) : (W3 m ρ c (Proc.devRef .tc main_v36) : S128.Idx → EReal) = val_main_v35 (F := Ideal) (m ((c : Thread nD τ).loc main_arg3)) := by
  show StableHlo.after hostOps1 (W2 m ρ c) (Proc.devRef .tc main_v36) = _
  after_results
  rw [w2_arg3]
  rfl
theorem w3_v38 (c : Dev nD) : (W3 m ρ c (Proc.devRef .tc main_v38) : S128x128.Idx → EReal) = val_main_v37 (F := Ideal) (m ((c : Thread nD τ).loc main_arg4)) := by
  show StableHlo.after hostOps1 (W2 m ρ c) (Proc.devRef .tc main_v38) = _
  after_results
  rw [w2_arg4]
  rfl
theorem w3_v40 (c : Dev nD) : (W3 m ρ c (Proc.devRef .tc main_v40) : S128.Idx → EReal) = val_main_v39 (F := Ideal) (m ((c : Thread nD τ).loc main_arg5)) := by
  show StableHlo.after hostOps1 (W2 m ρ c) (Proc.devRef .tc main_v40) = _
  after_results
  rw [w2_arg5]
  rfl

/-! ## The second launch -/

theorem w4_v41 (c : Dev nD) : (W4 m ρ c (Proc.devRef .tc main_v41) : S50000x128.Idx → EReal) = net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 6).trans ((Launch1.final (V3 m ρ) c).trans ?_)
  show layer (W3 m ρ c (Proc.devRef .tc main_v22)) (W3 m ρ c (Proc.devRef .tc main_v32)) (W3 m ρ c (Proc.devRef .tc main_v34))
    (W3 m ρ c (Proc.devRef .tc main_v36)) (W3 m ρ c (Proc.devRef .tc main_v38)) (W3 m ρ c (Proc.devRef .tc main_v40)) = _
  rw [w3_v22, w3_v32, w3_v34, w3_v36, w3_v38, w3_v40]
  rfl
theorem w4_v1 (c : Dev nD) : (W4 m ρ c (Proc.devRef .tc main_v1) : S800000.Idx → BitVec 32) = val_main_v1 (F := Ideal) (m ((c : Thread nD τ).loc main_arg1)) :=
  (W4_of_ne m ρ c main_v1 (by decide)).trans (w3_v1 m ρ c)
theorem w4_v3 (c : Dev nD) : (W4 m ρ c (Proc.devRef .tc main_v3) : S800000.Idx → BitVec 32) = val_main_v3 (F := Ideal) (m ((c : Thread nD τ).loc main_arg1)) :=
  (W4_of_ne m ρ c main_v3 (by decide)).trans (w3_v3 m ρ c)
theorem w4_arg2 (c : Dev nD) : W4 m ρ c (Proc.devRef .tc main_arg2) = (m ((c : Thread nD τ).loc main_arg2)) :=
  (W4_of_ne m ρ c main_arg2 (by decide)).trans (w3_arg2 m ρ c)
theorem w4_arg3 (c : Dev nD) : W4 m ρ c (Proc.devRef .tc main_arg3) = (m ((c : Thread nD τ).loc main_arg3)) :=
  (W4_of_ne m ρ c main_arg3 (by decide)).trans (w3_arg3 m ρ c)
theorem w4_arg4 (c : Dev nD) : W4 m ρ c (Proc.devRef .tc main_arg4) = (m ((c : Thread nD τ).loc main_arg4)) :=
  (W4_of_ne m ρ c main_arg4 (by decide)).trans (w3_arg4 m ρ c)
theorem w4_arg5 (c : Dev nD) : W4 m ρ c (Proc.devRef .tc main_arg5) = (m ((c : Thread nD τ).loc main_arg5)) :=
  (W4_of_ne m ρ c main_arg5 (by decide)).trans (w3_arg5 m ρ c)

end Cert.KernelIdeal.Host

end
-- ==== Proof.KLaunch2.lean ====
/-
  Launch 2 of the kernel as a whole-array function.

  The launch walks 25 grid points; point `t` loads rows `2000·t … 2000·t + 1999` of the node features and of the
  neighbour sums, the two whole weight matrices and the two whole bias vectors, and writes back rows
  `2000·t … 2000·t + 1999` of the output. Each written entry is the layer's formula at that row (the body's
  block at an entry, read through the blocks' row offsets), and the 25 row blocks tile the 50000 rows, so after the
  launch the output array is one layer of the arrays the launch found, whatever those are.
-/
import proofs.«130620_j32049045963189_1_alg».proof.Proof.Gen.KernelIdeal.Frame
import proofs.«130620_j32049045963189_1_alg».proof.Proof.KBody
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch2

open Cert.KernelIdeal Cert.KernelIdeal.Gen Cert.KernelIdeal.Body Cert.Gin

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs and the output sit at block row `t`, block
    column 0; the weights and biases at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The body's block at an entry, for blocks that are the stated rows of whole arrays: the layer at row
    `2000·t + p`. -/
theorem block_entry (A0 A1 : SNode.Idx → EReal) (A2 : SMat.Idx → EReal) (A3 : SVec.Idx → EReal) (A4 : SMat.Idx → EReal) (A5 : SVec.Idx → EReal)
    (x0 x1 : Vec Ideal S2000x128 .f32) (x2 : Vec Ideal S128x128 .f32) (x3 : Vec Ideal S128 .f32)
    (x4 : Vec Ideal S128x128 .f32) (x5 : Vec Ideal S128 .f32) (r : Fin 50000) (p : Fin 2000) (q : Fin 128)
    (h0 : ∀ j : Fin 128, x0 (ix2 p j) = A0 (ix2 r j)) (h1 : ∀ j : Fin 128, x1 (ix2 p j) = A1 (ix2 r j))
    (h2 : x2 = A2) (h3 : x3 = A3) (h4 : x4 = A4) (h5 : x5 = A5) :
    k2_pay1 (F := Ideal) x0 x1 x2 x3 x4 x5 (ix2 p q) = layer A0 A1 A2 A3 A4 A5 (ix2 r q) := by
  rw [pay2_apply, layer_apply, h2, h3, h4, h5]
  unfold layerAt
  exact congrArg (fun h => mlpRow h A2 A3 A4 A5 q) (funext fun j => by rw [h0, h1])

/-- WHAT POINT `t` WRITES BACK is block `t` of the layer of the arrays as the launch finds them. -/
theorem flushed_eq (c : Dev nD) (t : Fin cfg2.N) :
    (dat2 V c).flushed 6 t = ((cfg2.win 6).blk t).view.read (Elt Ideal)
      (layer (V c main_v41) (V c main_v51) (V c main_v53) (V c main_v55) (V c main_v57) (V c main_v59)) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S128) hz1]
  obtain ⟨e00, e01, e10, e11, e20, e21, e30, e40, e41, e50, e60, e61⟩ := idx_facts t
  have ht : t.val < 25 := by have h := t.isLt; have hN : cfg2.N = 25 := N_2; omega
  funext y
  have hy0 : (y 0).val < 2000 := (y 0).isLt
  have hy1 : (y 1).val < 128 := (y 1).isLt
  rw [View.read_apply]
  have hemb : ((cfg2.win 6).blk t).view.emb y = ix2 (⟨t.val * 2000 + (y 0).val, by omega⟩ : Fin 50000) (⟨(y 1).val, hy1⟩ : Fin 128) := by
    funext a; apply Fin.ext
    match a with
    | ⟨0, _⟩ => show win2_6.index t (0 : Fin 2) * 2000 + 1 * (y 0).val = t.val * 2000 + (y 0).val; rw [e60]; omega
    | ⟨1, _⟩ => show win2_6.index t (1 : Fin 2) * 128 + 1 * (y 1).val = (y 1).val; rw [e61]; omega
  rw [hemb]
  refine (congrArg _ (eq_ix2 y)).trans (block_entry (V c main_v41) (V c main_v51) (V c main_v53) (V c main_v55) (V c main_v57) (V c main_v59)
    (iblk2 V c 0 t) (iblk2 V c 1 t) (iblk2 V c 2 t) (iblk2 V c 3 t) (iblk2 V c 4 t) (iblk2 V c 5 t)
    ⟨t.val * 2000 + (y 0).val, by omega⟩ ⟨(y 0).val, hy0⟩ ⟨(y 1).val, hy1⟩ ?_ ?_ ?_ ?_ ?_ ?_)
  · intro j
    show V c main_v41 (((cfg2.win 0).blk t).view.emb _) = V c main_v41 _
    refine congrArg _ (funext fun a => Fin.ext ?_)
    match a with
    | ⟨0, _⟩ => show win2_0.index t (0 : Fin 2) * 2000 + 1 * (y 0).val = t.val * 2000 + (y 0).val; rw [e00]; omega
    | ⟨1, _⟩ => show win2_0.index t (1 : Fin 2) * 128 + 1 * j.val = j.val; rw [e01]; omega
  · intro j
    show V c main_v51 (((cfg2.win 1).blk t).view.emb _) = V c main_v51 _
    refine congrArg _ (funext fun a => Fin.ext ?_)
    match a with
    | ⟨0, _⟩ => show win2_1.index t (0 : Fin 2) * 2000 + 1 * (y 0).val = t.val * 2000 + (y 0).val; rw [e10]; omega
    | ⟨1, _⟩ => show win2_1.index t (1 : Fin 2) * 128 + 1 * j.val = j.val; rw [e11]; omega
  · funext z
    show V c main_v53 (((cfg2.win 2).blk t).view.emb z) = V c main_v53 z
    refine congrArg _ (funext fun a => Fin.ext ?_)
    match a with
    | ⟨0, _⟩ => show win2_2.index t (0 : Fin 2) * 128 + 1 * (z 0).val = (z 0).val; rw [e20]; omega
    | ⟨1, _⟩ => show win2_2.index t (1 : Fin 2) * 128 + 1 * (z 1).val = (z 1).val; rw [e21]; omega
  · funext z
    show V c main_v55 (((cfg2.win 3).blk t).view.emb z) = V c main_v55 z
    refine congrArg _ (funext fun a => Fin.ext ?_)
    match a with
    | ⟨0, _⟩ => show win2_3.index t (0 : Fin 1) * 128 + 1 * (z 0).val = (z 0).val; rw [e30]; omega
  · funext z
    show V c main_v57 (((cfg2.win 4).blk t).view.emb z) = V c main_v57 z
    refine congrArg _ (funext fun a => Fin.ext ?_)
    match a with
    | ⟨0, _⟩ => show win2_4.index t (0 : Fin 2) * 128 + 1 * (z 0).val = (z 0).val; rw [e40]; omega
    | ⟨1, _⟩ => show win2_4.index t (1 : Fin 2) * 128 + 1 * (z 1).val = (z 1).val; rw [e41]; omega
  · funext z
    show V c main_v59 (((cfg2.win 5).blk t).view.emb z) = V c main_v59 z
    refine congrArg _ (funext fun a => Fin.ext ?_)
    match a with
    | ⟨0, _⟩ => show win2_5.index t (0 : Fin 1) * 128 + 1 * (z 0).val = (z 0).val; rw [e50]; omega

/-- An index of the output array is in point `t`'s block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v60).slice (win2_6.rect t)).set ↔ _
  rw [View.set_slice_whole, Rect.mem_set_unit]
  exact Iff.rfl

/-- Every index of the output array is in the block of the point its row falls in: row `r` in block `r / 2000`. -/
theorem covered (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, -, -, -, -, -, -, e60, e61⟩ := idx_facts t
  have e60' : win2_6.index t (0 : Fin 2) = (i 0).val / 2000 := e60
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; rw [e60']; omega
  | ⟨1, _⟩ => show win2_6.index t (1 : Fin 2) * 128 ≤ (i 1).val ∧ (i 1).val < win2_6.index t (1 : Fin 2) * 128 + 128; rw [e61]; omega

/-- THE OUTPUT ARRAY after the launch: one layer of the arrays the launch found. -/
theorem final (c : Dev nD) : (dat2 V c).arrAt 6 cfg2.N
    = layer (V c main_v41) (V c main_v51) (V c main_v53) (V c main_v55) (V c main_v57) (V c main_v59) :=
  (dat2 V c).arrAt_eq_of_cover 6 _ (fun t _ => flushed_eq V c t) covered

end Cert.KernelIdeal.Launch2

end
-- ==== Proof.KHost3.lean ====
/-
  The kernel's host side, third stretch and third launch: the result.

  The third stretch forms the neighbour sums of the second layer and takes slice 2 of each weight stack; the third
  launch leaves the third layer in the result buffer. Folded through the three stretches and launches, the result
  is the three-layer network of the arguments.
-/
import proofs.«130620_j32049045963189_1_alg».proof.Proof.KHost2
import proofs.«130620_j32049045963189_1_alg».proof.Proof.KLaunch2
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen Cert.Gin
open Cert.ReferenceIdeal.Read Cert.ReferenceIdeal.Layers

variable (m : (ℓ : Loc nD τ sig) → Buf (Elt Ideal) ℓ) (ρ : Dev nD → PrngReg)

/-! ## Before the third launch -/

theorem w5_v41 (c : Dev nD) : (W5 m ρ c (Proc.devRef .tc main_v41) : S50000x128.Idx → EReal) = net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v41) = _
  after_results
  exact w4_v41 m ρ c
set_option maxHeartbeats 2000000 in
theorem w5_v51 (c : Dev nD) : (W5 m ρ c (Proc.devRef .tc main_v51) : S50000x128.Idx → EReal) = agg (m ((c : Thread nD τ).loc main_arg1)) (net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h41 := w4_v41 m ρ c
  have h1 := w4_v1 m ρ c
  have h3 := w4_v3 m ρ c
  show StableHlo.after hostOps2 (W4 m ρ c) (Proc.devRef .tc main_v51) = _
  generalize W4 m ρ c = Wv at h41 h1 h3 ⊢
  generalize net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = N2 at h41 ⊢
  after_results
  rw [h41, h1, h3]
  rfl
theorem w5_v53 (c : Dev nD) : (W5 m ρ c (Proc.devRef .tc main_v53) : S128x128.Idx → EReal) = val_main_v61 (F := Ideal) (m ((c : Thread nD τ).loc main_arg2)) := by
  show StableHlo.after hostOps2 (W4 m ρ c) (Proc.devRef .tc main_v53) = _
  after_results
  rw [w4_arg2]
  rfl
theorem w5_v55 (c : Dev nD) : (W5 m ρ c (Proc.devRef .tc main_v55) : S128.Idx → EReal) = val_main_v63 (F := Ideal) (m ((c : Thread nD τ).loc main_arg3)) := by
  show StableHlo.after hostOps2 (W4 m ρ c) (Proc.devRef .tc main_v55) = _
  after_results
  rw [w4_arg3]
  rfl
theorem w5_v57 (c : Dev nD) : (W5 m ρ c (Proc.devRef .tc main_v57) : S128x128.Idx → EReal) = val_main_v65 (F := Ideal) (m ((c : Thread nD τ).loc main_arg4)) := by
  show StableHlo.after hostOps2 (W4 m ρ c) (Proc.devRef .tc main_v57) = _
  after_results
  rw [w4_arg4]
  rfl
theorem w5_v59 (c : Dev nD) : (W5 m ρ c (Proc.devRef .tc main_v59) : S128.Idx → EReal) = val_main_v67 (F := Ideal) (m ((c : Thread nD τ).loc main_arg5)) := by
  show StableHlo.after hostOps2 (W4 m ρ c) (Proc.devRef .tc main_v59) = _
  after_results
  rw [w4_arg5]
  rfl

/-! ## The third launch: the result -/

/-- The result buffer at the last boundary is the three-layer network of the arguments. -/
theorem result_eq (c : Dev nD) : (W6 m ρ c (Proc.devRef .tc main_v60) : S50000x128.Idx → EReal) = net3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 6).trans ((Launch2.final (V5 m ρ) c).trans ?_)
  show layer (W5 m ρ c (Proc.devRef .tc main_v41)) (W5 m ρ c (Proc.devRef .tc main_v51)) (W5 m ρ c (Proc.devRef .tc main_v53))
    (W5 m ρ c (Proc.devRef .tc main_v55)) (W5 m ρ c (Proc.devRef .tc main_v57)) (W5 m ρ c (Proc.devRef .tc main_v59)) = _
  rw [w5_v41, w5_v51, w5_v53, w5_v55, w5_v57, w5_v59]
  rfl

end Cert.KernelIdeal.Host

end
-- ==== Proof.lean ====
/-
  A three-layer graph network: the kernel program against its whole-array reference, on the extended reals.

  Both programs take node features `x` (50000 × 128), an edge list (2 × 800000 integers), and three stacked pairs of
  128 × 128 weights and 128-vectors of biases. A layer replaces `x` by

      relu((x + agg) · W1 + b1) · W2 + b2,      agg = the sum, into each target node's row, of its sources' rows of x,

  and the result is three layers. The reference computes each layer on whole arrays. The kernel program computes
  `agg` on the host with the very same look-up and scatter-add lines, and the dense part in a launch over 25 blocks
  of 2000 node rows; inside a block the inputs are narrowed to a shorter float format before each product, which at
  the ideal values changes nothing. Entry by entry both sides are the same finite sums over the 128 features:
  the kernel's per-block products and the reference's whole products read at a node and a feature, the bias
  broadcasts read at a column, the rectifier's zero the same word. The neighbour sums are one function of the edge
  list and the current features on both sides and are never opened; no law that needs finite inputs is used.

  `KRun` gives the kernel program's run with its result named, `KLaunch0…2` each launch as a whole-array function,
  `KHost1…3` the fold through the host lines to the network of the arguments, `RLayer` the reference's three layers.
-/
import proofs.«130620_j32049045963189_1_alg».proof.Defs
import proofs.«130620_j32049045963189_1_alg».proof.Proof.Gen.Kernel
import proofs.«130620_j32049045963189_1_alg».proof.Proof.Gen.Kernel.Skeleton
import proofs.«130620_j32049045963189_1_alg».proof.Proof.Gen.Kernel.Launch
import proofs.«130620_j32049045963189_1_alg».proof.Proof.Gen.Kernel.Points
import proofs.«130620_j32049045963189_1_alg».proof.Proof.Gen.Kernel.Frame
import proofs.«130620_j32049045963189_1_alg».proof.Proof.Gen.KernelIdeal
import proofs.«130620_j32049045963189_1_alg».proof.Proof.Gen.KernelIdeal.Skeleton
import proofs.«130620_j32049045963189_1_alg».proof.Proof.Gen.KernelIdeal.Launch
import proofs.«130620_j32049045963189_1_alg».proof.Proof.Gen.KernelIdeal.Points
import proofs.«130620_j32049045963189_1_alg».proof.Proof.Gen.KernelIdeal.Frame
import proofs.«130620_j32049045963189_1_alg».proof.Proof.Gen.ReferenceIdeal
import proofs.«130620_j32049045963189_1_alg».proof.Proof.Gen.ReferenceIdeal.Run
import proofs.«130620_j32049045963189_1_alg».proof.Proof.Gen.ReferenceIdeal.Read
import proofs.«130620_j32049045963189_1_alg».proof.Proof.Gen.Pre_finite_inputs
import proofs.«130620_j32049045963189_1_alg».proof.Proof.KRun
import proofs.«130620_j32049045963189_1_alg».proof.Proof.KHost3
import proofs.«130620_j32049045963189_1_alg».proof.Proof.RLayer
import Idealize.ShloMosaic.Adequacy
import Idealize.ShloMosaic.Init

noncomputable section

namespace Cert.Proof

open Idealize.ShloMosaic Idealize.SL.Sem

/-- The kernel program runs and leaves its arguments alone (the word-level reading). -/
theorem frame_kernel : Cert.frame_Kernel := fun m ρ _ => Cert.Kernel.Gen.frame m ρ

/-- The same at the ideal values. -/
theorem frame_kernel_ideal : Cert.frame_KernelIdeal := fun m ρ _ => Cert.KernelIdeal.Gen.frame m ρ

/-- The reference runs and leaves its arguments alone: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the three-layer network of the arguments. -/
theorem algebraic : Cert.algebraic_KernelIdeal_ReferenceIdeal := by
  intro m ρ m' ρ' _ hagree
  refine ⟨fun c => Cert.ReferenceIdeal.Layers.net3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Host.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v87_eq, Cert.ReferenceIdeal.Layers.ref_net3,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
